-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S67108864 : Shape := ⟨1, ![67108864]⟩
abbrev S_ : Shape := ⟨0, ![]⟩

class Facts : Prop where
  bcast_S_S67108864 : S_.BroadcastsInDim S67108864 (![] : Fin 0 → Fin S67108864.rank)
  reducesTo_S67108864_S_d0 : S67108864.ReducesTo [0] S_
  h_S_ : 0 < S_.numel

variable [Facts]

def fn {F : FTy → Type} [FloatOps F] (main_arg0 : FVec F S67108864 .f32) : IVec S_ 1 :=
  let main_v0 : FVec F S67108864 .f32 := Host.absf main_arg0
  let main_cst : FVec F S_ .f32 := constant S_ .f32 0x7F800000#32
  let main_v1 : FVec F S67108864 .f32 := broadcastInDim S67108864 ![] bcast_S_S67108864 main_cst
  let main_v2 : IVec S67108864 1 := cmpf .olt main_v0 main_v1
  let main_c : IVec S_ 1 := constantI S_ 1 1#1
  let main_v3 : IVec S_ 1 := (fun x v => Host.reduce IntOp.andi x v reducesTo_S67108864_S_d0 h_S_) main_v2 main_c
  main_v3
-- ==== Kernel.lean ====
abbrev S67108864 : Shape := ⟨1, ![67108864]⟩
abbrev S524288x128 : Shape := ⟨2, ![524288, 128]⟩
abbrev S16384x128 : Shape := ⟨2, ![16384, 128]⟩

abbrev nBuf : Space → Nat
  | .hbm => 4
  | .vmem => 4
  | .smem => 0
  | _ => 0

abbrev bufTy : (tb : Table) → Fin (tcTables nBuf tb) → BufTy
  | .hbm, ⟨0, _⟩ => ⟨S67108864, .f32⟩
  | .hbm, ⟨1, _⟩ => ⟨S524288x128, .f32⟩
  | .hbm, ⟨2, _⟩ => ⟨S524288x128, .f32⟩
  | .hbm, ⟨3, _⟩ => ⟨S67108864, .f32⟩
  | .local _ .vmem, ⟨0, _⟩ => ⟨S16384x128, .f32⟩
  | .local _ .vmem, ⟨1, _⟩ => ⟨S16384x128, .f32⟩
  | .local _ .vmem, ⟨2, _⟩ => ⟨S16384x128, .f32⟩
  | .local _ .vmem, ⟨3, _⟩ => ⟨S16384x128, .f32⟩
  | _, _ => ⟨S67108864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S67108864_S524288x128 : S67108864.ShapeCasts S524288x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  shapeCasts_S524288x128_S67108864 : S524288x128.ShapeCasts S67108864
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S524288x128.size a
  hwx0_0 : ∀ i : grid0.Coords, EltTy.bits .f32 = 32 ∨ (Rect.block (s := S524288x128) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S524288x128.size a
  hwx0_1 : ∀ i : grid0.Coords, EltTy.bits .f32 = 32 ∨ (Rect.block (s := S524288x128) S16384x128.size (cc0_transform_1 i) (hinb0_1 i)).WholeWords (EltTy.packing .f32)

variable [Facts₀]

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16384x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S67108864 : Shape := ⟨1, ![67108864]⟩

abbrev nBuf : Space → Nat
  | .hbm => 2
  | .vmem => 0
  | .smem => 0
  | _ => 0

abbrev bufTy : (tb : Table) → Fin (tcTables nBuf tb) → BufTy
  | .hbm, ⟨0, _⟩ => ⟨S67108864, .f32⟩
  | .hbm, ⟨1, _⟩ => ⟨S67108864, .f32⟩
  | _, _ => ⟨S67108864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where

variable [Facts₀]

class Facts : Prop extends Facts₀ where

variable [Facts]
-- ==== Proof.Pointwise.lean ====
/-
  Reciprocal square root, element by element, and how it travels through a change of layout.

  A flat array of n numbers may be laid out as a matrix with the same row-major order; a map applied to every
  entry does not care which of the two layouts it is applied in: re-laying the array, applying the map entrywise
  and re-laying back is the map applied entrywise to the flat array.  On the extended reals the kernel's
  reciprocal square root and the host's are one function (1/√x, with 0 ↦ +∞, +∞ ↦ 0 and the conventional value at
  negative arguments), so the two entrywise maps coincide there.
-/
import Idealize.ShloMosaic.PureOps.Ideal
import Idealize.ShloMosaic.Lib.Pipeline.Value

noncomputable section

namespace Cert.Pointwise

open Idealize.ShloMosaic

variable {F : FTy → Type} [FloatOps F]

/-- An entrywise map commutes with a change of layout: the entry at a position of the new layout is the map of
    the entry at the same row-major position of the old one, whichever is done first. -/
theorem rsqrt_shapeCast {s t : Shape} {φ : FTy} (v : FVec F s φ) (h : s.ShapeCasts t) :
    shapeCast t (rsqrt v) h = rsqrt (shapeCast t v h) := rfl

/-- Flat → matrix → entrywise 1/√· → flat is entrywise 1/√· of the flat array: the two changes of layout undo one
    another. -/
theorem rsqrt_roundtrip {s t : Shape} {φ : FTy} (x : FVec F s φ) (h : s.ShapeCasts t) (h' : t.ShapeCasts s) :
    shapeCast s (rsqrt (shapeCast t x h)) h' = rsqrt x := by
  rw [rsqrt_shapeCast, shapeCast_shapeCast]

/-- On the extended reals the kernel's reciprocal square root and the host's are the same function of each
    entry. -/
theorem rsqrt_eq_host {s : Shape} {φ : FTy} (x : FVec Ideal s φ) : rsqrt x = Host.rsqrt x := by
  funext i
  simp only [rsqrt, Host.rsqrt, Ideal.rsqrt_def, Ideal.hostUnary_rsqrt_def]

end Cert.Pointwise

end
-- ==== Proof.Blocks.lean ====
/-
  What one grid point of the kernel writes back.

  The flat input x of 67108864 numbers is re-laid as a matrix of 524288 rows of 128 (same row-major order), and
  the grid has 32 points; point t reads rows 16384·t … 16384·t + 16383 of that matrix — its block — takes the
  reciprocal square root of every entry, and writes the result back to the same rows of the output matrix.  So
  what point t writes back is block t of ONE matrix, the entrywise reciprocal square root of the re-laid input.
-/
import proofs.«144508_j61933428415408_2_alg».proof.Proof.Gen.KernelIdeal.Frame
import proofs.«144508_j61933428415408_2_alg».proof.Proof.Pointwise
import Idealize.ShloMosaic.Lib.Pipeline.Value
import Idealize.ShloMosaic.Lib.StableHlo.Run

set_option maxRecDepth 16384

noncomputable section

namespace Cert.KernelIdeal.RsqrtValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The matrix the region reads: the flat argument in 524288 rows of 128, row-major order kept. -/
theorem entry_matrix (c : Dev nD) :
    (V m c main_v0 : S524288x128.Idx → Elt F .f32)
      = shapeCast S524288x128 (m ((c : Thread nD τ).loc main_arg0)) shapeCasts_S67108864_S524288x128 := by
  show StableHlo.after hostOps0 (fun b => m (c, b)) (Proc.devRef .tc main_v0) = _
  after_results
  rfl

/-- The block's offsets inside the staging buffer are all zero. -/
theorem offsets_zero : (![0, 0] : Fin 2 → Nat) = fun _ => 0 := funext fun a => by fin_cases a <;> rfl

/-- The body's arithmetic: the block it loaded, every entry replaced by its reciprocal square root (the cast
    between the block's shape and itself changes nothing). -/
theorem payload_eq (x0 : Vec F S16384x128 .f32) : k0_pay1 x0 = rsqrt x0 :=
  congrArg rsqrt (shapeCast_self x0 shapeCasts_S16384x128_S16384x128)

/-- Point t reads and writes the same rows: both windows sit at block row t, block column 0. -/
theorem same_block : ∀ t : Fin cfg0.N, win0_0.index t (0 : Fin 2) = win0_1.index t (0 : Fin 2)
    ∧ win0_0.index t (1 : Fin 2) = win0_1.index t (1 : Fin 2)
    ∧ win0_1.index t (0 : Fin 2) ≤ 31
    ∧ win0_1.index t (1 : Fin 2) = 0 :=
  (by decide +kernel : ∀ t : Fin grid0.N, _)

/-- WHAT POINT t WRITES BACK is block t of the entrywise reciprocal square root of the matrix the region reads. -/
theorem flushed_eq (c : Dev nD) (t : Fin cfg0.N) :
    (dats m 0 c).flushed 1 t = ((cfg0.win 1).blk t).view.read (Elt F) (rsqrt (V m c main_v0)) := by
  show (cfg0.win 1).cut (grid0.coords t) ((dats m 0 c).after 1 t) = _
  rw [after0_1]
  unfold out0_1
  rw [View.canon_unit_zero offsets_zero]
  simp only [View.ld_unit_zero (S := S16384x128) offsets_zero]
  rw [payload_eq]
  obtain ⟨e0, e1, e2, e3⟩ := same_block t
  funext j
  show FloatOps.rsqrt (V m c main_v0 (((cfg0.win 0).blk t).view.emb j)) = FloatOps.rsqrt (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 16384 + 1 * (j 0).val = win0_1.index t (0 : Fin 2) * 16384 + 1 * (j 0).val; omega
    | ⟨1, _⟩ => show win0_0.index t (1 : Fin 2) * 128 + 1 * (j 1).val = win0_1.index t (1 : Fin 2) * 128 + 1 * (j 1).val; omega
  rw [h0]

end Cert.KernelIdeal.RsqrtValue

end
-- ==== Proof.Whole.lean ====
/-
  From the blocks to the whole result.

  The 32 blocks of 16384 rows tile the 524288 rows of the output matrix: row r lies in block r / 16384 and in no
  other.  Every entry of the output matrix is therefore written by exactly the point that owns its row, and the
  matrix ends as the entrywise reciprocal square root of the re-laid input.  The program's result is that matrix
  laid flat again; since an entrywise map commutes with a change of layout and the two changes of layout undo
  one another, the result is the entrywise reciprocal square root of the flat input.
-/
import proofs.«144508_j61933428415408_2_alg».proof.Proof.Blocks

set_option maxRecDepth 16384

noncomputable section

namespace Cert.KernelIdeal.RsqrtValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Every block row 0 … 31 is some point's. -/
theorem block_of_row : ∀ q : Fin 32, ∃ t : Fin cfg0.N, win0_1.index t = ![q.val, 0] :=
  (by decide +kernel : ∀ q : Fin 32, ∃ t : Fin grid0.N, win0_1.index t = ![q.val, 0])

/-- An entry of the output matrix is in point t's block iff each coordinate is in the block's range on its axis. -/
theorem mem_block (t : Fin cfg0.N) (i : S524288x128.Idx) :
    i ∈ ((cfg0.win 1).blk t).view.set ↔ ∀ a : Fin 2, win0_1.index t a * S16384x128.size a ≤ (i a).val ∧ (i a).val < win0_1.index t a * S16384x128.size a + S16384x128.size a := by
  show i ∈ ((View.whole main_v1).slice (win0_1.rect t)).set ↔ _
  rw [View.set_slice_whole, Rect.mem_set_unit]
  exact Iff.rfl

/-- The blocks tile the matrix: the entry in row r is in the block of the point at block row r / 16384. -/
theorem covered (i : S524288x128.Idx) :
    ∃ t : Fin cfg0.N, (cfg0.win 1).flush t = true ∧ i ∈ ((cfg0.win 1).blk t).view.set := by
  have hi0 : (i 0).val < 524288 := (i 0).isLt
  have hi1 : (i 1).val < 128 := (i 1).isLt
  obtain ⟨t, ht⟩ := block_of_row ⟨(i 0).val / 16384, by omega⟩
  have q0 : win0_1.index t (0 : Fin 2) = (i 0).val / 16384 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 16384 ≤ (i 0).val ∧ (i 0).val < win0_1.index t (0 : Fin 2) * 16384 + 16384; omega
  | ⟨1, _⟩ => show win0_1.index t (1 : Fin 2) * 128 ≤ (i 1).val ∧ (i 1).val < win0_1.index t (1 : Fin 2) * 128 + 128; omega

/-- THE OUTPUT MATRIX after the run: the entrywise reciprocal square root of the matrix the region reads. -/
theorem final_matrix (c : Dev nD) : (dats m 0 c).arrAt 1 cfg0.N = rsqrt (V m c main_v0) :=
  (dats m 0 c).arrAt_eq_of_cover 1 (rsqrt (V m c main_v0)) (fun t _ => flushed_eq m c t) covered

/-- THE RESULT: the output matrix laid flat again is the entrywise reciprocal square root of the flat argument. -/
theorem result_flat (c : Dev nD) :
    Pipeline.afterTail₀ cfgs (dats m) 0 (V0 m) [hostOps1] c main_v2 = rsqrt (m ((c : Thread nD τ).loc main_arg0)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = rsqrt (V m c main_v0) :=
    (Pipeline.withArrays_arr spec0 launch0.win.arr_inj c _ _ 1).trans (final_matrix m c)
  rw [hw, entry_matrix]
  exact Cert.Pointwise.rsqrt_roundtrip _ _ _

/-- The kernel's run, read: every weakly fair execution terminates with the result the entrywise reciprocal
    square root of the argument, and the argument as launched. -/
theorem run : θ_run defs (onTc (τ := τ) (main (F := F))) ⟨m, fun _ => 0, ρ⟩ fun r => ∀ c : Dev nD,
      r.2.mem ((c : Thread nD τ).loc main_v2) = rsqrt (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_flat m c),
       ((h c).2 main_arg0 (Pipeline.mem_restRefs_of main_arg0 (by decide) (by decide))).trans (W_main_arg0 m (dats m) c)⟩)
    (run_main m ρ)

end Cert.KernelIdeal.RsqrtValue

end
-- ==== Proof.lean ====
/-
  The kernel computes 1/√x entry by entry over a flat array of 67108864 numbers: it lays the array out as a matrix
  of 524288 rows of 128, lets each of 32 grid points replace 16384 rows by their entrywise reciprocal square
  roots, and lays the matrix flat again.  The reference applies the host's reciprocal square root to the flat
  array.  Read on the extended reals the two are one function of x:

    • the 32 blocks tile the matrix, so every entry of the output matrix is the reciprocal square root of the
      entry of the re-laid input at the same place (Proof/Blocks.lean, Proof/Whole.lean);
    • an entrywise map commutes with a change of layout, and flat → matrix → flat is the identity, so the result
      is the entrywise reciprocal square root of x itself (Proof/Pointwise.lean);
    • on the extended reals the kernel's and the host's reciprocal square root are the same function 1/√·
      (0 ↦ +∞, +∞ ↦ 0), so nothing about the size or sign of the entries is needed: the precondition is not used.

  The idealization rewrote nothing, so that conjunct is trivial; the three frames are the programs' runs with
  the result forgotten.
-/
import proofs.«144508_j61933428415408_2_alg».proof.Defs
import proofs.«144508_j61933428415408_2_alg».proof.Proof.Gen.Kernel
import proofs.«144508_j61933428415408_2_alg».proof.Proof.Gen.Kernel.Skeleton
import proofs.«144508_j61933428415408_2_alg».proof.Proof.Gen.Kernel.Launch
import proofs.«144508_j61933428415408_2_alg».proof.Proof.Gen.Kernel.Points
import proofs.«144508_j61933428415408_2_alg».proof.Proof.Gen.Kernel.Frame
import proofs.«144508_j61933428415408_2_alg».proof.Proof.Gen.KernelIdeal
import proofs.«144508_j61933428415408_2_alg».proof.Proof.Gen.KernelIdeal.Skeleton
import proofs.«144508_j61933428415408_2_alg».proof.Proof.Gen.KernelIdeal.Launch
import proofs.«144508_j61933428415408_2_alg».proof.Proof.Gen.KernelIdeal.Points
import proofs.«144508_j61933428415408_2_alg».proof.Proof.Gen.KernelIdeal.Frame
import proofs.«144508_j61933428415408_2_alg».proof.Proof.Gen.ReferenceIdeal
import proofs.«144508_j61933428415408_2_alg».proof.Proof.Gen.ReferenceIdeal.Run
import proofs.«144508_j61933428415408_2_alg».proof.Proof.Gen.Pre_finite_inputs
import proofs.«144508_j61933428415408_2_alg».proof.Proof.Pointwise
import proofs.«144508_j61933428415408_2_alg».proof.Proof.Whole
import Idealize.ShloMosaic.Adequacy
import Idealize.ShloMosaic.Init

noncomputable section

namespace Cert.Proof

open Idealize.ShloMosaic Idealize.ShloMosaic.TcCoe Idealize.SL.Sem

/-- The word-level kernel runs and leaves its argument as launched. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its argument as launched: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals both programs end with 1/√x at every entry of the flat array: the kernel's run ends at
    the kernel's entrywise reciprocal square root of its argument, the reference's at the host's of ITS argument;
    the two arguments agree and the two operations are one function. -/
theorem algebraic : Cert.algebraic_KernelIdeal_ReferenceIdeal := by
  intro m ρ m' ρ' _ hagree
  refine ⟨_, Cert.KernelIdeal.RsqrtValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]
  exact (Cert.Pointwise.rsqrt_eq_host _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
